-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S256 : Shape := ⟨1, ![256]⟩
abbrev S100000x1 : Shape := ⟨2, ![100000, 1]⟩
abbrev S256x128 : Shape := ⟨2, ![256, 128]⟩
abbrev S256x1 : Shape := ⟨2, ![256, 1]⟩
abbrev S1x64 : Shape := ⟨2, ![1, 64]⟩
abbrev S256x64 : Shape := ⟨2, ![256, 64]⟩

abbrev nBuf : Space → Nat
  | .hbm => 120
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x128, .f32⟩
  | .hbm, ⟨93, _⟩ => ⟨S1700000x1, .f32⟩
  | .hbm, ⟨94, _⟩ => ⟨S1700000x128, .f32⟩
  | .hbm, ⟨95, _⟩ => ⟨S1700000x128, .f32⟩
  | .hbm, ⟨96, _⟩ => ⟨S_, .f32⟩
  | .hbm, ⟨97, _⟩ => ⟨S100000x128, .f32⟩
  | .hbm, ⟨98, _⟩ => ⟨S1700000x1, .i32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S256, .f32⟩
  | .hbm, ⟨106, _⟩ => ⟨S100000x1, .i32⟩
  | .hbm, ⟨107, _⟩ => ⟨S256, .f32⟩
  | .hbm, ⟨108, _⟩ => ⟨S_, .f32⟩
  | .hbm, ⟨109, _⟩ => ⟨S256x128, .f32⟩
  | .hbm, ⟨110, _⟩ => ⟨S100000x1, .i32⟩
  | .hbm, ⟨111, _⟩ => ⟨S256x128, .f32⟩
  | .hbm, ⟨112, _⟩ => ⟨S_, .f32⟩
  | .hbm, ⟨113, _⟩ => ⟨S256, .f32⟩
  | .hbm, ⟨114, _⟩ => ⟨S256, .f32⟩
  | .hbm, ⟨115, _⟩ => ⟨S256x1, .f32⟩
  | .hbm, ⟨116, _⟩ => ⟨S256x128, .f32⟩
  | .hbm, ⟨117, _⟩ => ⟨S256x128, .f32⟩
  | .hbm, ⟨118, _⟩ => ⟨S1x64, .f32⟩
  | .hbm, ⟨119, _⟩ => ⟨S256x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S128x64, .f32⟩
  | .local _ .vmem, ⟨24, _⟩ => ⟨S1x64, .f32⟩
  | .local _ .vmem, ⟨25, _⟩ => ⟨S256x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x64.size a ≤ S256x64.size a
  hwx4_3 : ∀ i : grid4.Coords, EltTy.bits .f32 = 32 ∨ (Rect.block (s := S256x64) S256x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S256x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S256 : Shape := ⟨1, ![256]⟩
abbrev S100000x1 : Shape := ⟨2, ![100000, 1]⟩
abbrev S256x128 : Shape := ⟨2, ![256, 128]⟩
abbrev S256x1 : Shape := ⟨2, ![256, 1]⟩
abbrev S256x64 : Shape := ⟨2, ![256, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .f32⟩
  | 123 => ⟨S256x128, .f32⟩
  | 124 => ⟨S100000x1, .i32⟩
  | 125 => ⟨S256x128, .f32⟩
  | 126 => ⟨S_, .f32⟩
  | 127 => ⟨S256, .f32⟩
  | _ => ⟨S100000x128, .f32⟩

abbrev hbmTy0_1 (i : Nat) : BufTy := match i % 128 with
  | 0 => ⟨S256, .f32⟩
  | 1 => ⟨S256x1, .f32⟩
  | 2 => ⟨S256x128, .f32⟩
  | 3 => ⟨S256x128, .f32⟩
  | 4 => ⟨S256x64, .f32⟩
  | 5 => ⟨S1x64, .f32⟩
  | 6 => ⟨S256x64, .f32⟩
  | 7 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x128_S128x64_S256x64_1_0_0_1_n_n_wf : DotDims.WF S256x128 S128x64 S256x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

class Facts : Prop extends Facts₀ where

variable [Facts]
-- ==== Proof.KernelRun.lean ====
/-
  The idealized kernel's run with its result named. The program is five pallas regions among stretches of host
  operations; the contents of every buffer at each boundary form a fold from the launch memory: a host stretch
  rewrites the buffers its operations write, a region rewrites its output array block by block and leaves every other
  buffer alone. Every weakly fair execution terminates in a state whose unscoped buffers hold the last term of that
  fold, so the result array holds the fold's value at the result buffer and the arguments hold what was launched.
-/
import proofs.«119889_j31756988187185_1_alg».proof.Defs
import proofs.«119889_j31756988187185_1_alg».proof.Proof.Gen.KernelIdeal.Frame

set_option maxRecDepth 16384

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the value the
    boundary fold ends with and every argument array as launched. -/
theorem run_folded : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Folded

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.LibRowOps.lean ====
/-
  The arithmetic of one layer, index by index over the extended reals. A row-by-row matrix product: entry (r, c) is
  the sum over f of A (r, f) · W (f, c). A bias row added to every row and the result clamped below at zero: entry
  (r, q) is max (A (r, q) + b (0, q)) 0. A bias row added to every row. None of these needs a finite entry: sums and
  maxima of extended reals are total, and the only law used between two arrangements is that a product commutes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {m k n : ℕ}

/-- An `[a, b]` array of extended reals. -/
abbrev Mat (a b : ℕ) := FVec Ideal (⟨2, ![a, b]⟩ : Shape) .f32

/-- Row of `i`, column `f`: where the left factor of term `f` of entry `i` of a product sits. -/
abbrev lrow (i : (⟨2, ![m, n]⟩ : Shape).Idx) (f : Fin k) : (⟨2, ![m, k]⟩ : Shape).Idx := ix2 ⟨(i 0).val, idx2_lt0 i⟩ f
/-- Row `f`, column of `i`: where the right factor of term `f` of entry `i` of a product sits. -/
abbrev rcol (i : (⟨2, ![m, n]⟩ : Shape).Idx) (f : Fin k) : (⟨2, ![k, n]⟩ : Shape).Idx := ix2 f ⟨(i 1).val, idx2_lt1 i⟩
/-- The entry of a one-row array in the column of `i`. -/
abbrev lane (i : (⟨2, ![m, n]⟩ : Shape).Idx) : (⟨2, ![1, n]⟩ : Shape).Idx := ix2 (0 : Fin 1) ⟨(i 1).val, idx2_lt1 i⟩

/-- The matrix product, entry by entry. -/
def rowsMul (A : Mat m k) (W : Mat k n) : Mat m n := fun i => ∑ f : Fin k, A (lrow i f) * W (rcol i f)
/-- A bias row added to every row, then clamped below at zero. -/
def biasRelu (A : Mat m n) (b : Mat 1 n) : Mat m n :=
  fun i => max (A i + b (lane i)) (FloatOps.ofBits (F := Ideal) .f32 0x00000000#32)
/-- A bias row added to every row. -/
def addRow (A : Mat m n) (b : Mat 1 n) : Mat m n := fun i => A i + b (lane i)

theorem rowsMul_ix2 (A : Mat m k) (W : Mat k n) (r : Fin m) (c : Fin n) :
    rowsMul A W (ix2 r c) = ∑ f : Fin k, A (ix2 r f) * W (ix2 f c) := rfl
theorem biasRelu_ix2 (A : Mat m n) (b : Mat 1 n) (r : Fin m) (q : Fin n) :
    biasRelu A b (ix2 r q) = max (A (ix2 r q) + b (ix2 (0 : Fin 1) q)) (FloatOps.ofBits (F := Ideal) .f32 0x00000000#32) := rfl
theorem addRow_ix2 (A : Mat m n) (b : Mat 1 n) (r : Fin m) (q : Fin n) :
    addRow A b (ix2 r q) = A (ix2 r q) + b (ix2 (0 : Fin 1) q) := rfl

/-- A product of two arrays of extended reals, entry by entry, commutes. -/
theorem mulf_comm {s : Shape} {φ : FTy} (a b : FVec Ideal s φ) : mulf a b = mulf b a :=
  funext fun i => mul_comm (a i) (b i)

end Cert.RowOps

end
-- ==== Proof.Region0.lean ====
/-
  Region 0: x · w1 in twenty blocks of 5000 rows. Grid point t multiplies rows 5000·t … 5000·t + 4999 of the left
  array by the whole right array into the zero accumulator and writes the product back as the same rows of the output.
  A row of a product depends on that row of the left factor only, so block t of the output is block t of the
  row-by-row product of the two whole arrays; the twenty blocks tile the 100000 rows, so after the region the output
  array IS that product.
-/
import proofs.«119889_j31756988187185_1_alg».proof.Proof.Gen.KernelIdeal.Frame
import proofs.«119889_j31756988187185_1_alg».proof.Proof.LibPlainMatmul
import proofs.«119889_j31756988187185_1_alg».proof.Proof.LibRowOps

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.RowOps

/-- The offset of a store at the buffer's origin. -/
theorem origin2 : (![0, 0] : Fin 2 → Nat) = fun _ => 0 := funext fun a => by fin_cases a <;> rfl

/-! ## The [5000, 128] · [128, 128] product's operand indices -/

section Dot5000

theorem d5000_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem d5000_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d5000_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d5000_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000, 128] block times a [128, 128] array into the zero accumulator is their row-by-row product: a change of
    float format is the identity on extended reals. -/
theorem matmul5000_eq (x : Mat 5000 128) (w : Mat 128 128) :
    matmul (F := Ideal) dot_S5000x128_S128x128_S5000x128_1_0_0_1_n_n none (truncf .bf16 x bitsLt_bf16_f32)
      (truncf .bf16 w bitsLt_bf16_f32) (constant S5000x128 .f32 0x00000000#32) = rowsMul x w := by
  funext j
  obtain ⟨p, q, rfl⟩ : ∃ (p : Fin 5000) (q : Fin 128), j = ix2 p q := ⟨j 0, j 1, eq_ix2 j⟩
  exact Cert.PlainMatmul.matmul_zero_ix2_apply dot_S5000x128_S128x128_S5000x128_1_0_0_1_n_n rfl rfl
    d5000_l0 d5000_l1 d5000_r0 d5000_r1 none _ _ p q

end Dot5000

/-! ## Region 0 -/

section Region0

variable (V : (c : Dev nD) → (b : Ref sig .tc) → Buf (Elt Ideal) ((c : Thread nD τ).loc b))

/-- The body's stored value is the product of its two loaded blocks. -/
theorem pay0_eq (x0 : Vec Ideal S5000x128 .f32) (x1 : Vec Ideal S128x128 .f32) : k0_pay1 x0 x1 = rowsMul x0 x1 :=
  matmul5000_eq x0 x1

/-- The printed index maps over the grid: the left operand's and the output's blocks move together down the rows, the
    right operand's block stays put. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- What point `t` writes back is block `t` of the product of the two arrays as the region finds them. -/
theorem flushed0_eq (c : Dev nD) (t : Fin cfg0.N) :
    (dat0 V c).flushed 2 t = ((cfg0.win 2).blk t).view.read (Elt Ideal) (rowsMul (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  rw [pay0_eq]
  obtain ⟨e0, e1, e2, e3, e4, e5⟩ := idx_facts0 t
  funext j
  show rowsMul (iblk0 V c 0 t) (iblk0 V c 1 t) j = rowsMul (V c main_arg0) (V c main_arg3) (((cfg0.win 2).blk t).view.emb j)
  unfold rowsMul
  refine Finset.sum_congr rfl fun f _ => ?_
  have h0 : iblk0 V c 0 t (lrow j f) = V c main_arg0 (lrow (((cfg0.win 2).blk t).view.emb j) f) := by
    show V c main_arg0 (((cfg0.win 0).blk t).view.emb (lrow j f)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * f.val = f.val; omega
  have h1 : iblk0 V c 1 t (rcol j f) = V c main_arg3 (rcol (((cfg0.win 2).blk t).view.emb j) f) := by
    show V c main_arg3 (((cfg0.win 1).blk t).view.emb (rcol j f)) = _
    refine congrArg (V c main_arg3) (funext fun a => Fin.ext ?_)
    match a with
    | ⟨0, _⟩ => show win0_1.index t (0 : Fin 2) * 128 + 1 * f.val = f.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The twenty blocks of rows tile the output array. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array is the product of the two arrays it was entered with. -/
theorem final0 (c : Dev nD) : (dat0 V c).arrAt 2 cfg0.N = rowsMul (V c main_arg0) (V c main_arg3) :=
  (dat0 V c).arrAt_eq_of_cover 2 _ (fun t _ => flushed0_eq V c t) covered0

end Region0

end Cert.KernelIdeal.Rows

end
-- ==== Proof.LibPlainDot.lean ====
/-
  A plain two-axis matrix product on the host, read at an index given by coordinates: for dimension numbers that
  contract the left operand's columns with the right operand's rows, an `[m, k] · [k, n]` `dot_general` over the
  extended reals reads, at `(r, c)`, the sum over `f` of left `(r, f)` times right `(f, c)` — the same sum a
  matrix product into a zero accumulator reads there, whatever the order the host adds in.
-/
import Idealize.ShloMosaic.Lib.ValueIdx
import Idealize.ShloMosaic.PureOps.Ideal.Laws

noncomputable section

namespace Cert.PlainDot

open Idealize.ShloMosaic Idealize.ShloMosaic.ValueIdx

/-- For dimension numbers that contract the left operand's columns with the right operand's rows (`hl0` … `hr1`: the
    operand indices at an output index and a contraction position, read off the numbers), an `[m, k] · [k, n]`
    host product reads, at `(r, c)`, the sum over `f` of left `(r, f)` times right `(f, c)`. -/
theorem dotGeneral_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (sched : HostSchedule)
    (lhs : FVec Ideal ⟨2, ![m, k]⟩ φ₁) (rhs : FVec Ideal ⟨2, ![k, n]⟩ φ₂) (r : Fin m) (c : Fin n) :
    FloatOps.dotGeneral D prec sched lhs rhs (ix2 r c) = ∑ f : Fin k, lhs (ix2 r f) * rhs (ix2 f c) := by
  refine (Ideal.dotGeneral_apply D prec sched lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainDot

end
-- ==== Proof.LibBroadcastInDim.lean ====
/-
  Host broadcasts of a per-row and of a per-lane quantity, read at an index. A vector `[a]` of per-row numbers is
  first given a unit lane axis (`[a, 1]`) and then repeated along the lanes (`[a, c]`): entry `(r, q)` of the result is
  entry `r` of the vector. A vector `[c]` of per-lane numbers is first given a unit row axis (`[1, c]`) and then repeated
  along the rows: entry `(r, q)` of the result is entry `q` of the vector. A scalar broadcast to any shape reads the
  scalar everywhere.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A per-row vector `[a]` broadcast to `[a, 1]` and then to `[a, c]` reads, at `(r, q)`, the vector's entry `r`. -/
theorem perRow_apply {a c : ℕ} (d : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, c]⟩ ![0, 1]) (r : Fin a) (q : Fin c) :
    broadcastInDim ⟨2, ![a, c]⟩ ![0, 1] h2 (broadcastInDim ⟨2, ![a, 1]⟩ ![0] h1 d) (ix2 r q) = d (ix1 r) := by
  refine (broadcastInDim_apply _ h2 _ (ix2 r q) (ix2 r (0 : Fin 1)) fun ax => ?_).trans
    (broadcastInDim_apply _ h1 d (ix2 r (0 : Fin 1)) (ix1 r) fun ax => ?_)
  · match ax with
    | ⟨0, _⟩ =>
      show r.val = if a = 1 then 0 else r.val
      split
      · have := r.isLt; omega
      · rfl
    | ⟨1, _⟩ => show 0 = if (1 : ℕ) = 1 then 0 else q.val; rw [if_pos rfl]
  · match ax with
    | ⟨0, _⟩ =>
      show r.val = if a = 1 then 0 else r.val
      split
      · have := r.isLt; omega
      · rfl

/-- A per-lane vector `[c]` broadcast to `[1, c]` and then to `[a, c]` reads, at `(r, q)`, the vector's entry `q`. -/
theorem perLane_apply {a c : ℕ} (b : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (r : Fin a) (q : Fin c) :
    broadcastInDim ⟨2, ![a, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => show 0 = if (1 : ℕ) = 1 then 0 else r.val; rw [if_pos rfl]
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- A scalar broadcast to any shape reads the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply _ h x i ix0 fun ax => ax.elim0

end Cert.Lib.BroadcastInDim

end
-- ==== Proof.LibRowBias.lean ====
/-
  The bias row as each side spells it. Inside a region the bias arrives as a one-row array and is repeated down the
  rows of the block; on the host a bias vector is first given a unit row axis and then repeated down the rows. Either
  way entry (r, q) sees the bias entry of lane q, so "add the bias, clamp at zero" is one function of the array and of
  the bias held as a one-row array; a vector reshaped to one row holds the vector's entry q in lane q.
-/
import proofs.«119889_j31756988187185_1_alg».proof.Proof.LibBroadcastInDim
import proofs.«119889_j31756988187185_1_alg».proof.Proof.LibRowOps

noncomputable section

namespace Cert.RowOps

open Idealize.ShloMosaic Idealize.ShloMosaic.ValueIdx

variable {a c : ℕ}

/-- Inside a region: the loaded block plus the one-row bias repeated down its rows, clamped below at the zero splat. -/
theorem blockBiasRelu_eq (x0 : Mat a c) (x1 : Mat 1 c)
    (hs : (⟨2, ![a, c]⟩ : Shape).ShapeCasts ⟨2, ![a, c]⟩) (hs1 : (⟨2, ![1, c]⟩ : Shape).ShapeCasts ⟨2, ![1, c]⟩)
    (hb : (⟨2, ![1, c]⟩ : Shape).Broadcasts ⟨2, ![a, c]⟩) :
    maximumf (addf (shapeCast ⟨2, ![a, c]⟩ x0 hs) (broadcastTo ⟨2, ![a, c]⟩ (shapeCast ⟨2, ![1, c]⟩ x1 hs1) hb))
        (broadcast ⟨2, ![a, c]⟩ (Scalar.ofBits (F := Ideal) .f32 0x00000000#32))
      = biasRelu x0 x1 := by
  rw [shapeCast_self, shapeCast_self]
  funext j
  obtain ⟨r, q, rfl⟩ : ∃ (r : Fin a) (q : Fin c), j = ix2 r q := ⟨j 0, j 1, eq_ix2 j⟩
  rw [biasRelu_ix2]
  show max (x0 (ix2 r q) + broadcastTo ⟨2, ![a, c]⟩ x1 hb (ix2 r q)) _ = _
  rw [broadcastTo_1b_ab_apply]
  rfl

/-- Inside a region: a value plus the one-row bias repeated down its rows. -/
theorem blockAddRow_eq (y : Mat a c) (x1 : Mat 1 c) (hs1 : (⟨2, ![1, c]⟩ : Shape).ShapeCasts ⟨2, ![1, c]⟩)
    (hb : (⟨2, ![1, c]⟩ : Shape).Broadcasts ⟨2, ![a, c]⟩) :
    addf y (broadcastTo ⟨2, ![a, c]⟩ (shapeCast ⟨2, ![1, c]⟩ x1 hs1) hb) = addRow y x1 := by
  rw [shapeCast_self]
  funext j
  obtain ⟨r, q, rfl⟩ : ∃ (r : Fin a) (q : Fin c), j = ix2 r q := ⟨j 0, j 1, eq_ix2 j⟩
  rw [addRow_ix2]
  show y (ix2 r q) + broadcastTo ⟨2, ![a, c]⟩ x1 hb (ix2 r q) = _
  rw [broadcastTo_1b_ab_apply]

/-- On the host: the array plus the bias vector given a unit row axis and repeated down the rows, clamped below at the
    zero splat, is the same function of the array and of the vector reshaped to one row. -/
theorem hostBiasRelu_eq (A : Mat a c) (b : FVec Ideal (⟨1, ![c]⟩ : Shape) .f32)
    (h1 : (⟨1, ![c]⟩ : Shape).BroadcastsInDim ⟨2, ![1, c]⟩ ![1])
    (h2 : (⟨2, ![1, c]⟩ : Shape).BroadcastsInDim ⟨2, ![a, c]⟩ ![0, 1])
    (h0 : (⟨0, ![]⟩ : Shape).BroadcastsInDim ⟨2, ![a, c]⟩ ![])
    (hc : (⟨1, ![c]⟩ : Shape).ShapeCasts ⟨2, ![1, c]⟩) :
    maximumf (addf A (broadcastInDim ⟨2, ![a, c]⟩ ![0, 1] h2 (broadcastInDim ⟨2, ![1, c]⟩ ![1] h1 b)))
        (broadcastInDim ⟨2, ![a, c]⟩ ![] h0 (constant (F := Ideal) ⟨0, ![]⟩ .f32 0x00000000#32))
      = biasRelu A (shapeCast ⟨2, ![1, c]⟩ b hc) := by
  funext j
  obtain ⟨r, q, rfl⟩ : ∃ (r : Fin a) (q : Fin c), j = ix2 r q := ⟨j 0, j 1, eq_ix2 j⟩
  rw [biasRelu_ix2, shapeCast_a_1a_apply]
  show max (A (ix2 r q) + broadcastInDim ⟨2, ![a, c]⟩ ![0, 1] h2 (broadcastInDim ⟨2, ![1, c]⟩ ![1] h1 b) (ix2 r q))
    (broadcastInDim ⟨2, ![a, c]⟩ ![] h0 (constant (F := Ideal) ⟨0, ![]⟩ .f32 0x00000000#32) (ix2 r q)) = _
  rw [Cert.Lib.BroadcastInDim.perLane_apply, Cert.Lib.BroadcastInDim.splat_apply]
  rfl

/-- On the host: an array plus the bias vector given a unit row axis and repeated down the rows. -/
theorem hostAddRow_eq (A : Mat a c) (b : FVec Ideal (⟨1, ![c]⟩ : Shape) .f32)
    (h1 : (⟨1, ![c]⟩ : Shape).BroadcastsInDim ⟨2, ![1, c]⟩ ![1])
    (h2 : (⟨2, ![1, c]⟩ : Shape).BroadcastsInDim ⟨2, ![a, c]⟩ ![0, 1])
    (hc : (⟨1, ![c]⟩ : Shape).ShapeCasts ⟨2, ![1, c]⟩) :
    addf A (broadcastInDim ⟨2, ![a, c]⟩ ![0, 1] h2 (broadcastInDim ⟨2, ![1, c]⟩ ![1] h1 b))
      = addRow A (shapeCast ⟨2, ![1, c]⟩ b hc) := by
  funext j
  obtain ⟨r, q, rfl⟩ : ∃ (r : Fin a) (q : Fin c), j = ix2 r q := ⟨j 0, j 1, eq_ix2 j⟩
  rw [addRow_ix2, shapeCast_a_1a_apply]
  show A (ix2 r q) + broadcastInDim ⟨2, ![a, c]⟩ ![0, 1] h2 (broadcastInDim ⟨2, ![1, c]⟩ ![1] h1 b) (ix2 r q) = _
  rw [Cert.Lib.BroadcastInDim.perLane_apply]

end Cert.RowOps

end
-- ==== Proof.RefStages.lean ====
/-
  The reference, layer by layer, in the same terms as the kernel's regions. On extended reals the host's matrix
  product is the row-by-row product (the sum over the contracted axis, in whatever order the host adds), and "add the
  bias vector to every row, clamp at zero" is the function of the array and of the bias held as a one-row array that
  the regions compute. So each dense stage of the reference is that function of the stage before it.
-/
import proofs.«119889_j31756988187185_1_alg».proof.Proof.Gen.ReferenceIdeal.Read
import proofs.«119889_j31756988187185_1_alg».proof.Proof.LibPlainDot
import proofs.«119889_j31756988187185_1_alg».proof.Proof.LibRowBias

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen Cert.ReferenceIdeal.Read Cert.RowOps

/-- The host's [100000, 128] · [128, 128] product is the row-by-row product. -/
theorem dot100000_eq (A : Mat 100000 128) (W : Mat 128 128) :
    Host.dotGeneral (F := Ideal) dot_S100000x128_S128x128_S100000x128_1_0_0_1_n_n none A W = rowsMul A W := by
  funext j
  obtain ⟨r, q, rfl⟩ : ∃ (r : Fin 100000) (q : Fin 128), j = ix2 r q := ⟨j 0, j 1, eq_ix2 j⟩
  simp only [Host.dotGeneral]
  exact Cert.PlainDot.dotGeneral_ix2_apply dot_S100000x128_S128x128_S100000x128_1_0_0_1_n_n rfl rfl
    lhs_main_v29_0 lhs_main_v29_1 rhs_main_v29_0 rhs_main_v29_1 none _ A W r q

/-- The host's [256, 128] · [128, 64] product is the row-by-row product. -/
theorem dot256_eq (A : Mat 256 128) (W : Mat 128 64) :
    Host.dotGeneral (F := Ideal) dot_S256x128_S128x64_S256x64_1_0_0_1_n_n none A W = rowsMul A W := by
  funext j
  obtain ⟨r, q, rfl⟩ : ∃ (r : Fin 256) (q : Fin 64), j = ix2 r q := ⟨j 0, j 1, eq_ix2 j⟩
  simp only [Host.dotGeneral]
  exact Cert.PlainDot.dotGeneral_ix2_apply dot_S256x128_S128x64_S256x64_1_0_0_1_n_n rfl rfl
    lhs_main_v95_0 lhs_main_v95_1 rhs_main_v95_0 rhs_main_v95_1 none _ A W r q

variable (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))

/-- Layer 1's transform: x · w1. -/
theorem v29_eq : val_main_v29 (F := Ideal) x0 x3 = rowsMul x0 x3 := dot100000_eq x0 x3

/-- Layer 2's transform: relu (agg1 + b1) · w2, with b1 held as one row. -/
theorem v47_eq (hc : (⟨1, ![128]⟩ : Shape).ShapeCasts ⟨2, ![1, 128]⟩) :
    val_main_v47 (F := Ideal) x0 x1 x3 x4 x5
      = rowsMul (biasRelu (val_main_v42 (F := Ideal) x0 x1 x3) (shapeCast ⟨2, ![1, 128]⟩ x4 hc)) x5 := by
  show Host.dotGeneral (F := Ideal) dot_S100000x128_S128x128_S100000x128_1_0_0_1_n_n none
      (maximumf (addf (val_main_v42 (F := Ideal) x0 x1 x3)
        (broadcastInDim S100000x128 ![0, 1] bcast_S1x128_S100000x128_0_1 (broadcastInDim S1x128 ![1] bcast_S128_S1x128_1 x4)))
        (broadcastInDim S100000x128 ![] bcast_S_S100000x128 (constant S_ .f32 0x00000000#32))) x5 = _
  rw [dot100000_eq, hostBiasRelu_eq _ _ _ _ _ hc]

/-- Layer 3's transform: relu (agg2 + b2) · w3, with b2 held as one row. -/
theorem v65_eq (hc : (⟨1, ![128]⟩ : Shape).ShapeCasts ⟨2, ![1, 128]⟩) :
    val_main_v65 (F := Ideal) x0 x1 x3 x4 x5 x6 x7
      = rowsMul (biasRelu (val_main_v60 (F := Ideal) x0 x1 x3 x4 x5) (shapeCast ⟨2, ![1, 128]⟩ x6 hc)) x7 := by
  show Host.dotGeneral (F := Ideal) dot_S100000x128_S128x128_S100000x128_1_0_0_1_n_n none
      (maximumf (addf (val_main_v60 (F := Ideal) x0 x1 x3 x4 x5)
        (broadcastInDim S100000x128 ![0, 1] bcast_S1x128_S100000x128_0_1 (broadcastInDim S1x128 ![1] bcast_S128_S1x128_1 x6)))
        (broadcastInDim S100000x128 ![] bcast_S_S100000x128 (constant S_ .f32 0x00000000#32))) x7 = _
  rw [dot100000_eq, hostBiasRelu_eq _ _ _ _ _ hc]

/-- The last layer's node features: relu (agg3 + b3), with b3 held as one row. -/
theorem v82_eq (hc : (⟨1, ![128]⟩ : Shape).ShapeCasts ⟨2, ![1, 128]⟩) :
    val_main_v82 (F := Ideal) x0 x1 x3 x4 x5 x6 x7 x8
      = biasRelu (val_main_v78 (F := Ideal) x0 x1 x3 x4 x5 x6 x7) (shapeCast ⟨2, ![1, 128]⟩ x8 hc) := by
  unfold val_main_v82 val_main_v81 val_main_v80 val_main_v79 val_main_call2_v0 val_main_call2_cst
  exact hostBiasRelu_eq _ _ _ _ _ hc

/-- The readout: pooled · w_out + b_out, with b_out held as one row. -/
theorem v98_eq (hc : (⟨1, ![64]⟩ : Shape).ShapeCasts ⟨2, ![1, 64]⟩) :
    val_main_v98 (F := Ideal) x0 x1 x2 x3 x4 x5 x6 x7 x8 x9 x10
      = addRow (rowsMul (val_main_v94 (F := Ideal) x0 x1 x2 x3 x4 x5 x6 x7 x8) x9) (shapeCast ⟨2, ![1, 64]⟩ x10 hc) := by
  show addf (Host.dotGeneral (F := Ideal) dot_S256x128_S128x64_S256x64_1_0_0_1_n_n none (val_main_v94 (F := Ideal) x0 x1 x2 x3 x4 x5 x6 x7 x8) x9)
      (broadcastInDim S256x64 ![0, 1] bcast_S1x64_S256x64_0_1 (broadcastInDim S1x64 ![1] bcast_S64_S1x64_1 x10)) = _
  rw [dot256_eq, hostAddRow_eq _ _ _ _ hc]

end Cert.ReferenceIdeal.Stages

end
-- ==== Proof.Boundary1.lean ====
/-
  The boundary fold, first part: from the launch to the entry of region 1. Each buffer the later stages read is followed
  from boundary to boundary: a host stretch computes its results from the buffers it reads and leaves the rest, a region
  replaces its output array by the function its blocks tile and leaves the rest. What each buffer holds is named by the
  reference's own stage of the launched arguments: the index vectors and the edge weights come from the same host
  operations in both programs, and region 0's product is the reference's first transform.
-/
import proofs.«119889_j31756988187185_1_alg».proof.Proof.KernelRun
import proofs.«119889_j31756988187185_1_alg».proof.Proof.Region0
import proofs.«119889_j31756988187185_1_alg».proof.Proof.RefStages

set_option maxRecDepth 16384

noncomputable section

namespace Cert.KernelIdeal.Folded

open Idealize.ShloMosaic Idealize.ShloMosaic.TcCoe Idealize.SL.Sem
open Cert.KernelIdeal Cert.KernelIdeal.Gen Cert.RowOps
open Cert.ReferenceIdeal.Read

variable (m : (ℓ : Loc nD τ sig) → Buf (Elt Ideal) ℓ) (ρ : Dev nD → PrngReg) (c : Dev nD)

/-- The arguments as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)

/-! ## After the first stretch: the index vectors and the edge weights, and the arguments untouched -/

theorem W1_v3 : W1 m ρ c (Proc.devRef .tc main_v3) = val_main_v3 (F := Ideal) (a1 m c) := by
  show StableHlo.after hostOps0 (W0 m ρ c) (Proc.devRef .tc main_v3) = _
  after_results_simp <;> rfl
theorem W1_v6 : W1 m ρ c (Proc.devRef .tc main_v6) = val_main_v6 (F := Ideal) (a1 m c) := by
  show StableHlo.after hostOps0 (W0 m ρ c) (Proc.devRef .tc main_v6) = _
  after_results_simp <;> rfl
theorem W1_v28 : W1 m ρ c (Proc.devRef .tc main_v28) = val_main_v28 (F := Ideal) (a1 m c) := by
  show StableHlo.after hostOps0 (W0 m ρ c) (Proc.devRef .tc main_v28) = _
  after_results_simp <;> rfl
theorem W1_arg0 : W1 m ρ c (Proc.devRef .tc main_arg0) = a0 m c := by
  show StableHlo.after hostOps0 (W0 m ρ c) (Proc.devRef .tc main_arg0) = _
  after_results_simp <;> rfl
theorem W1_arg2 : W1 m ρ c (Proc.devRef .tc main_arg2) = a2 m c := by
  show StableHlo.after hostOps0 (W0 m ρ c) (Proc.devRef .tc main_arg2) = _
  after_results_simp <;> rfl
theorem W1_arg3 : W1 m ρ c (Proc.devRef .tc main_arg3) = a3 m c := by
  show StableHlo.after hostOps0 (W0 m ρ c) (Proc.devRef .tc main_arg3) = _
  after_results_simp <;> rfl
theorem W1_arg4 : W1 m ρ c (Proc.devRef .tc main_arg4) = a4 m c := by
  show StableHlo.after hostOps0 (W0 m ρ c) (Proc.devRef .tc main_arg4) = _
  after_results_simp <;> rfl
theorem W1_arg5 : W1 m ρ c (Proc.devRef .tc main_arg5) = a5 m c := by
  show StableHlo.after hostOps0 (W0 m ρ c) (Proc.devRef .tc main_arg5) = _
  after_results_simp <;> rfl
theorem W1_arg6 : W1 m ρ c (Proc.devRef .tc main_arg6) = a6 m c := by
  show StableHlo.after hostOps0 (W0 m ρ c) (Proc.devRef .tc main_arg6) = _
  after_results_simp <;> rfl
theorem W1_arg7 : W1 m ρ c (Proc.devRef .tc main_arg7) = a7 m c := by
  show StableHlo.after hostOps0 (W0 m ρ c) (Proc.devRef .tc main_arg7) = _
  after_results_simp <;> rfl
theorem W1_arg8 : W1 m ρ c (Proc.devRef .tc main_arg8) = a8 m c := by
  show StableHlo.after hostOps0 (W0 m ρ c) (Proc.devRef .tc main_arg8) = _
  after_results_simp <;> rfl
theorem W1_arg9 : W1 m ρ c (Proc.devRef .tc main_arg9) = a9 m c := by
  show StableHlo.after hostOps0 (W0 m ρ c) (Proc.devRef .tc main_arg9) = _
  after_results_simp <;> rfl
theorem W1_arg10 : W1 m ρ c (Proc.devRef .tc main_arg10) = a10 m c := by
  show StableHlo.after hostOps0 (W0 m ρ c) (Proc.devRef .tc main_arg10) = _
  after_results_simp <;> rfl

/-! ## After region 0: the first transform -/

/-- After region 0: its output is the reference's first transform, the product of the node features and the first weights. -/
theorem W2_v29 : W2 m ρ c (Proc.devRef .tc main_v29) = val_main_v29 (F := Ideal) (a0 m c) (a3 m c) := by
  refine (W2_arr m ρ c 2).trans ?_
  rw [Rows.final0 (V1 m ρ) c]
  show rowsMul (W1 m ρ c (Proc.devRef .tc main_arg0)) (W1 m ρ c (Proc.devRef .tc main_arg3)) = _
  rw [W1_arg0 m ρ c, W1_arg3 m ρ c]
  exact (Cert.ReferenceIdeal.Stages.v29_eq (a0 m c) (a3 m c)).symm
theorem W2_v3 : W2 m ρ c (Proc.devRef .tc main_v3) = val_main_v3 (F := Ideal) (a1 m c) :=
  (W2_of_ne m ρ c main_v3 (by decide)).trans (W1_v3 m ρ c)
theorem W2_v6 : W2 m ρ c (Proc.devRef .tc main_v6) = val_main_v6 (F := Ideal) (a1 m c) :=
  (W2_of_ne m ρ c main_v6 (by decide)).trans (W1_v6 m ρ c)
theorem W2_v28 : W2 m ρ c (Proc.devRef .tc main_v28) = val_main_v28 (F := Ideal) (a1 m c) :=
  (W2_of_ne m ρ c main_v28 (by decide)).trans (W1_v28 m ρ c)
theorem W2_arg2 : W2 m ρ c (Proc.devRef .tc main_arg2) = a2 m c :=
  (W2_of_ne m ρ c main_arg2 (by decide)).trans (W1_arg2 m ρ c)
theorem W2_arg4 : W2 m ρ c (Proc.devRef .tc main_arg4) = a4 m c :=
  (W2_of_ne m ρ c main_arg4 (by decide)).trans (W1_arg4 m ρ c)
theorem W2_arg5 : W2 m ρ c (Proc.devRef .tc main_arg5) = a5 m c :=
  (W2_of_ne m ρ c main_arg5 (by decide)).trans (W1_arg5 m ρ c)
theorem W2_arg6 : W2 m ρ c (Proc.devRef .tc main_arg6) = a6 m c :=
  (W2_of_ne m ρ c main_arg6 (by decide)).trans (W1_arg6 m ρ c)
theorem W2_arg7 : W2 m ρ c (Proc.devRef .tc main_arg7) = a7 m c :=
  (W2_of_ne m ρ c main_arg7 (by decide)).trans (W1_arg7 m ρ c)
theorem W2_arg8 : W2 m ρ c (Proc.devRef .tc main_arg8) = a8 m c :=
  (W2_of_ne m ρ c main_arg8 (by decide)).trans (W1_arg8 m ρ c)
theorem W2_arg9 : W2 m ρ c (Proc.devRef .tc main_arg9) = a9 m c :=
  (W2_of_ne m ρ c main_arg9 (by decide)).trans (W1_arg9 m ρ c)
theorem W2_arg10 : W2 m ρ c (Proc.devRef .tc main_arg10) = a10 m c :=
  (W2_of_ne m ρ c main_arg10 (by decide)).trans (W1_arg10 m ρ c)

/-! ## After the second stretch: the first aggregation and the first bias row -/

/-- After the stretch: the aggregation of the previous transform over the edges. The gathered rows times the edge
    weights and the edge weights times the gathered rows are the same products. -/
theorem W3_v42 : W3 m ρ c (Proc.devRef .tc main_v42) = val_main_v42 (F := Ideal) (a0 m c) (a1 m c) (a3 m c) := by
  show StableHlo.after hostOps1 (W2 m ρ c) (Proc.devRef .tc main_v42) = _
  after_results_simp
  rw [W2_v29 m ρ c, W2_v3 m ρ c, W2_v6 m ρ c, W2_v28 m ρ c, mulf_comm]
  rfl
/-- After the stretch: the layer's bias vector held as one row. -/
theorem W3_v43 : W3 m ρ c (Proc.devRef .tc main_v43) = shapeCast S1x128 (a4 m c) shapeCasts_S128_S1x128 := by
  show StableHlo.after hostOps1 (W2 m ρ c) (Proc.devRef .tc main_v43) = _
  after_results_simp
  rw [W2_arg4 m ρ c]
  rfl
theorem W3_v3 : W3 m ρ c (Proc.devRef .tc main_v3) = val_main_v3 (F := Ideal) (a1 m c) := by
  show StableHlo.after hostOps1 (W2 m ρ c) (Proc.devRef .tc main_v3) = _
  after_results_simp
  exact W2_v3 m ρ c
theorem W3_v6 : W3 m ρ c (Proc.devRef .tc main_v6) = val_main_v6 (F := Ideal) (a1 m c) := by
  show StableHlo.after hostOps1 (W2 m ρ c) (Proc.devRef .tc main_v6) = _
  after_results_simp
  exact W2_v6 m ρ c
theorem W3_v28 : W3 m ρ c (Proc.devRef .tc main_v28) = val_main_v28 (F := Ideal) (a1 m c) := by
  show StableHlo.after hostOps1 (W2 m ρ c) (Proc.devRef .tc main_v28) = _
  after_results_simp
  exact W2_v28 m ρ c
theorem W3_arg2 : W3 m ρ c (Proc.devRef .tc main_arg2) = a2 m c := by
  show StableHlo.after hostOps1 (W2 m ρ c) (Proc.devRef .tc main_arg2) = _
  after_results_simp
  exact W2_arg2 m ρ c
theorem W3_arg5 : W3 m ρ c (Proc.devRef .tc main_arg5) = a5 m c := by
  show StableHlo.after hostOps1 (W2 m ρ c) (Proc.devRef .tc main_arg5) = _
  after_results_simp
  exact W2_arg5 m ρ c
theorem W3_arg6 : W3 m ρ c (Proc.devRef .tc main_arg6) = a6 m c := by
  show StableHlo.after hostOps1 (W2 m ρ c) (Proc.devRef .tc main_arg6) = _
  after_results_simp
  exact W2_arg6 m ρ c
theorem W3_arg7 : W3 m ρ c (Proc.devRef .tc main_arg7) = a7 m c := by
  show StableHlo.after hostOps1 (W2 m ρ c) (Proc.devRef .tc main_arg7) = _
  after_results_simp
  exact W2_arg7 m ρ c
theorem W3_arg8 : W3 m ρ c (Proc.devRef .tc main_arg8) = a8 m c := by
  show StableHlo.after hostOps1 (W2 m ρ c) (Proc.devRef .tc main_arg8) = _
  after_results_simp
  exact W2_arg8 m ρ c
theorem W3_arg9 : W3 m ρ c (Proc.devRef .tc main_arg9) = a9 m c := by
  show StableHlo.after hostOps1 (W2 m ρ c) (Proc.devRef .tc main_arg9) = _
  after_results_simp
  exact W2_arg9 m ρ c
theorem W3_arg10 : W3 m ρ c (Proc.devRef .tc main_arg10) = a10 m c := by
  show StableHlo.after hostOps1 (W2 m ρ c) (Proc.devRef .tc main_arg10) = _
  after_results_simp
  exact W2_arg10 m ρ c

end Cert.KernelIdeal.Folded

end
-- ==== Proof.Region1.lean ====
/-
  Region 1: relu (agg1 + b1) · w2, in twenty blocks of 5000 rows. Grid point t adds the one-row bias to rows 5000·t … 5000·t + 4999
  of the aggregated array, clamps them below at zero, multiplies them by the whole weight array into the zero accumulator
  and writes the product back as the same rows of the output. Each output row depends on the same input row, the bias
  row and the weights only, so block t of the output is block t of one function of the three whole arrays; the blocks
  tile the 100000 rows, so after the region the output array IS that function.
-/
import proofs.«119889_j31756988187185_1_alg».proof.Proof.Region0
import proofs.«119889_j31756988187185_1_alg».proof.Proof.LibRowBias

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.RowOps

section Region1

variable (V : (c : Dev nD) → (b : Ref sig .tc) → Buf (Elt Ideal) ((c : Thread nD τ).loc b))

/-- The body's stored value: the loaded rows plus the bias row, clamped at zero, times the loaded weights. -/
theorem pay1_eq (x0 : Vec Ideal S5000x128 .f32) (x1 : Vec Ideal S1x128 .f32) (x2 : Vec Ideal S128x128 .f32) :
    k1_pay1 x0 x1 x2 = rowsMul (biasRelu x0 x1) x2 := by
  show matmul (F := Ideal) dot_S5000x128_S128x128_S5000x128_1_0_0_1_n_n none
      (truncf .bf16 (maximumf (addf (shapeCast S5000x128 x0 shapeCasts_S5000x128_S5000x128)
        (broadcastTo S5000x128 (shapeCast S1x128 x1 shapeCasts_S1x128_S1x128) broadcasts_S1x128_S5000x128))
        (broadcast S5000x128 (Scalar.ofBits .f32 0x00000000#32))) bitsLt_bf16_f32)
      (truncf .bf16 x2 bitsLt_bf16_f32) (constant S5000x128 .f32 0x00000000#32) = _
  rw [blockBiasRelu_eq]
  exact matmul5000_eq _ _

/-- The printed index maps over the grid: the aggregated array's and the output's blocks move together down the rows,
    the bias row's and the weights' blocks stay put. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every block of rows is some point's. -/
theorem idx_onto1 : ∀ (q0 : Fin 20), ∃ t : Fin cfg1.N, win1_3.index t = ![q0.val, 0] :=
  (by decide +kernel : ∀ (q0 : Fin 20), ∃ t : Fin grid1.N, win1_3.index t = ![q0.val, 0])

/-- What point `t` writes back is block `t` of one function of the three arrays as the region finds them. -/
theorem flushed1_eq (c : Dev nD) (t : Fin cfg1.N) :
    (dat1 V c).flushed 3 t
      = ((cfg1.win 3).blk t).view.read (Elt Ideal) (rowsMul (biasRelu (V c main_v42) (V c main_v43)) (V c main_arg5)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2, View.ld_unit_zero (S := S128x128) origin2]
  rw [pay1_eq]
  obtain ⟨e0, e1, e2, e3, e4, e5, e6, e7⟩ := idx_facts1 t
  funext j
  show rowsMul (biasRelu (iblk1 V c 0 t) (iblk1 V c 1 t)) (iblk1 V c 2 t) j
    = rowsMul (biasRelu (V c main_v42) (V c main_v43)) (V c main_arg5) (((cfg1.win 3).blk t).view.emb j)
  unfold rowsMul
  refine Finset.sum_congr rfl fun f _ => ?_
  have ha : iblk1 V c 0 t (lrow j f) = V c main_v42 (lrow (((cfg1.win 3).blk t).view.emb j) f) := by
    show V c main_v42 (((cfg1.win 0).blk t).view.emb (lrow j f)) = _
    refine congrArg (V c main_v42) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * f.val = f.val; omega
  have hb : iblk1 V c 1 t (lane (lrow j f)) = V c main_v43 (lane (lrow (((cfg1.win 3).blk t).view.emb j) f)) := by
    show V c main_v43 (((cfg1.win 1).blk t).view.emb (lane (lrow j f))) = _
    refine congrArg (V c main_v43) (funext fun a => Fin.ext ?_)
    match a with
    | ⟨0, _⟩ => show win1_1.index t (0 : Fin 2) * 1 + 1 * 0 = 0; omega
    | ⟨1, _⟩ => show win1_1.index t (1 : Fin 2) * 128 + 1 * f.val = f.val; omega
  have h0 : biasRelu (iblk1 V c 0 t) (iblk1 V c 1 t) (lrow j f)
      = biasRelu (V c main_v42) (V c main_v43) (lrow (((cfg1.win 3).blk t).view.emb j) f) := by
    simp only [biasRelu]
    rw [ha, hb]
  have h1 : iblk1 V c 2 t (rcol j f) = V c main_arg5 (rcol (((cfg1.win 3).blk t).view.emb j) f) := by
    show V c main_arg5 (((cfg1.win 2).blk t).view.emb (rcol j f)) = _
    refine congrArg (V c main_arg5) (funext fun a => Fin.ext ?_)
    match a with
    | ⟨0, _⟩ => show win1_2.index t (0 : Fin 2) * 128 + 1 * f.val = f.val; omega
    | ⟨1, _⟩ => show win1_2.index t (1 : Fin 2) * 128 + 1 * (j 1).val = win1_3.index t (1 : Fin 2) * 128 + 1 * (j 1).val; omega
  rw [h0, h1]

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- The twenty blocks of rows tile the output array. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1 its output array is one function of the three arrays it was entered with. -/
theorem final1 (c : Dev nD) :
    (dat1 V c).arrAt 3 cfg1.N = rowsMul (biasRelu (V c main_v42) (V c main_v43)) (V c main_arg5) :=
  (dat1 V c).arrAt_eq_of_cover 3 _ (fun t _ => flushed1_eq V c t) (covered1)

end Region1

end Cert.KernelIdeal.Rows

end
-- ==== Proof.Region2.lean ====
/-
  Region 2: relu (agg2 + b2) · w3, in twenty blocks of 5000 rows. Grid point t adds the one-row bias to rows 5000·t … 5000·t + 4999
  of the aggregated array, clamps them below at zero, multiplies them by the whole weight array into the zero accumulator
  and writes the product back as the same rows of the output. Each output row depends on the same input row, the bias
  row and the weights only, so block t of the output is block t of one function of the three whole arrays; the blocks
  tile the 100000 rows, so after the region the output array IS that function.
-/
import proofs.«119889_j31756988187185_1_alg».proof.Proof.Region0
import proofs.«119889_j31756988187185_1_alg».proof.Proof.LibRowBias

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.RowOps

section Region2

variable (V : (c : Dev nD) → (b : Ref sig .tc) → Buf (Elt Ideal) ((c : Thread nD τ).loc b))

/-- The body's stored value: the loaded rows plus the bias row, clamped at zero, times the loaded weights. -/
theorem pay2_eq (x0 : Vec Ideal S5000x128 .f32) (x1 : Vec Ideal S1x128 .f32) (x2 : Vec Ideal S128x128 .f32) :
    k2_pay1 x0 x1 x2 = rowsMul (biasRelu x0 x1) x2 := by
  show matmul (F := Ideal) dot_S5000x128_S128x128_S5000x128_1_0_0_1_n_n none
      (truncf .bf16 (maximumf (addf (shapeCast S5000x128 x0 shapeCasts_S5000x128_S5000x128)
        (broadcastTo S5000x128 (shapeCast S1x128 x1 shapeCasts_S1x128_S1x128) broadcasts_S1x128_S5000x128))
        (broadcast S5000x128 (Scalar.ofBits .f32 0x00000000#32))) bitsLt_bf16_f32)
      (truncf .bf16 x2 bitsLt_bf16_f32) (constant S5000x128 .f32 0x00000000#32) = _
  rw [blockBiasRelu_eq]
  exact matmul5000_eq _ _

/-- The printed index maps over the grid: the aggregated array's and the output's blocks move together down the rows,
    the bias row's and the weights' blocks stay put. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 19 :=
  (by decide +kernel : ∀ t : Fin grid2.N, _)

/-- Every block of rows is some point's. -/
theorem idx_onto2 : ∀ (q0 : Fin 20), ∃ t : Fin cfg2.N, win2_3.index t = ![q0.val, 0] :=
  (by decide +kernel : ∀ (q0 : Fin 20), ∃ t : Fin grid2.N, win2_3.index t = ![q0.val, 0])

/-- What point `t` writes back is block `t` of one function of the three arrays as the region finds them. -/
theorem flushed2_eq (c : Dev nD) (t : Fin cfg2.N) :
    (dat2 V c).flushed 3 t
      = ((cfg2.win 3).blk t).view.read (Elt Ideal) (rowsMul (biasRelu (V c main_v57) (V c main_v58)) (V c main_arg7)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S1x128) origin2, View.ld_unit_zero (S := S128x128) origin2]
  rw [pay2_eq]
  obtain ⟨e0, e1, e2, e3, e4, e5, e6, e7⟩ := idx_facts2 t
  funext j
  show rowsMul (biasRelu (iblk2 V c 0 t) (iblk2 V c 1 t)) (iblk2 V c 2 t) j
    = rowsMul (biasRelu (V c main_v57) (V c main_v58)) (V c main_arg7) (((cfg2.win 3).blk t).view.emb j)
  unfold rowsMul
  refine Finset.sum_congr rfl fun f _ => ?_
  have ha : iblk2 V c 0 t (lrow j f) = V c main_v57 (lrow (((cfg2.win 3).blk t).view.emb j) f) := by
    show V c main_v57 (((cfg2.win 0).blk t).view.emb (lrow j f)) = _
    refine congrArg (V c main_v57) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * f.val = f.val; omega
  have hb : iblk2 V c 1 t (lane (lrow j f)) = V c main_v58 (lane (lrow (((cfg2.win 3).blk t).view.emb j) f)) := by
    show V c main_v58 (((cfg2.win 1).blk t).view.emb (lane (lrow j f))) = _
    refine congrArg (V c main_v58) (funext fun a => Fin.ext ?_)
    match a with
    | ⟨0, _⟩ => show win2_1.index t (0 : Fin 2) * 1 + 1 * 0 = 0; omega
    | ⟨1, _⟩ => show win2_1.index t (1 : Fin 2) * 128 + 1 * f.val = f.val; omega
  have h0 : biasRelu (iblk2 V c 0 t) (iblk2 V c 1 t) (lrow j f)
      = biasRelu (V c main_v57) (V c main_v58) (lrow (((cfg2.win 3).blk t).view.emb j) f) := by
    simp only [biasRelu]
    rw [ha, hb]
  have h1 : iblk2 V c 2 t (rcol j f) = V c main_arg7 (rcol (((cfg2.win 3).blk t).view.emb j) f) := by
    show V c main_arg7 (((cfg2.win 2).blk t).view.emb (rcol j f)) = _
    refine congrArg (V c main_arg7) (funext fun a => Fin.ext ?_)
    match a with
    | ⟨0, _⟩ => show win2_2.index t (0 : Fin 2) * 128 + 1 * f.val = f.val; omega
    | ⟨1, _⟩ => show win2_2.index t (1 : Fin 2) * 128 + 1 * (j 1).val = win2_3.index t (1 : Fin 2) * 128 + 1 * (j 1).val; omega
  rw [h0, h1]

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v59).slice (win2_3.rect t)).set ↔ _
  rw [View.set_slice_whole, Rect.mem_set_unit]
  exact Iff.rfl

/-- The twenty blocks of rows tile the output array. -/
theorem covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After region 2 its output array is one function of the three arrays it was entered with. -/
theorem final2 (c : Dev nD) :
    (dat2 V c).arrAt 3 cfg2.N = rowsMul (biasRelu (V c main_v57) (V c main_v58)) (V c main_arg7) :=
  (dat2 V c).arrAt_eq_of_cover 3 _ (fun t _ => flushed2_eq V c t) (covered2)

end Region2

end Cert.KernelIdeal.Rows

end
-- ==== Proof.Region3.lean ====
/-
  Region 3: relu (agg3 + b3), in twenty blocks of 5000 rows. Grid point t adds the one-row bias to rows
  5000·t … 5000·t + 4999 of the aggregated array, clamps them below at zero and writes them back as the same rows of
  the output. The operation is entry by entry, so block t of the output is block t of one function of the two whole
  arrays; the blocks tile the 100000 rows, so after the region the output array IS that function.
-/
import proofs.«119889_j31756988187185_1_alg».proof.Proof.Region0
import proofs.«119889_j31756988187185_1_alg».proof.Proof.LibRowBias

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.RowOps

section Region3

variable (V : (c : Dev nD) → (b : Ref sig .tc) → Buf (Elt Ideal) ((c : Thread nD τ).loc b))

/-- The body's stored value: the loaded rows plus the bias row, clamped at zero. -/
theorem pay3_eq (x0 : Vec Ideal S5000x128 .f32) (x1 : Vec Ideal S1x128 .f32) : k3_pay1 x0 x1 = biasRelu x0 x1 :=
  blockBiasRelu_eq x0 x1 shapeCasts_S5000x128_S5000x128 shapeCasts_S1x128_S1x128 broadcasts_S1x128_S5000x128

/-- The printed index maps over the grid: the aggregated array's and the output's blocks move together down the rows,
    the bias row's block stays put. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every block of rows is some point's. -/
theorem idx_onto3 : ∀ (q0 : Fin 20), ∃ t : Fin cfg3.N, win3_2.index t = ![q0.val, 0] :=
  (by decide +kernel : ∀ (q0 : Fin 20), ∃ t : Fin grid3.N, win3_2.index t = ![q0.val, 0])

/-- What point `t` writes back is block `t` of one function of the two arrays as the region finds them. -/
theorem flushed3_eq (c : Dev nD) (t : Fin cfg3.N) :
    (dat3 V c).flushed 2 t = ((cfg3.win 2).blk t).view.read (Elt Ideal) (biasRelu (V c main_v72) (V c main_v73)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S1x128) origin2]
  rw [pay3_eq]
  obtain ⟨e0, e1, e2, e3, e4, e5⟩ := idx_facts3 t
  funext j
  show biasRelu (iblk3 V c 0 t) (iblk3 V c 1 t) j = biasRelu (V c main_v72) (V c main_v73) (((cfg3.win 2).blk t).view.emb j)
  have ha : iblk3 V c 0 t j = V c main_v72 (((cfg3.win 2).blk t).view.emb j) := by
    show V c main_v72 (((cfg3.win 0).blk t).view.emb j) = _
    refine congrArg (V c main_v72) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hb : iblk3 V c 1 t (lane j) = V c main_v73 (lane (((cfg3.win 2).blk t).view.emb j)) := by
    show V c main_v73 (((cfg3.win 1).blk t).view.emb (lane j)) = _
    refine congrArg (V c main_v73) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  simp only [biasRelu]
  rw [ha, hb]

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v74).slice (win3_2.rect t)).set ↔ _
  rw [View.set_slice_whole, Rect.mem_set_unit]
  exact Iff.rfl

/-- The twenty blocks of rows tile the output array. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After region 3 its output array is one function of the two arrays it was entered with. -/
theorem final3 (c : Dev nD) : (dat3 V c).arrAt 2 cfg3.N = biasRelu (V c main_v72) (V c main_v73) :=
  (dat3 V c).arrAt_eq_of_cover 2 _ (fun t _ => flushed3_eq V c t) covered3

end Region3

end Cert.KernelIdeal.Rows

end
-- ==== Proof.Region4.lean ====
/-
  Region 4: pooled · w_out + b_out in one block. The single grid point multiplies the whole [256, 128] pooled array by
  the whole [128, 64] weight array into the zero accumulator, adds the one-row bias to every row and writes the whole
  [256, 64] output. Every window's one block is its whole array, so after the region the output array IS that function
  of the three arrays.
-/
import proofs.«119889_j31756988187185_1_alg».proof.Proof.Region0
import proofs.«119889_j31756988187185_1_alg».proof.Proof.LibRowBias

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.RowOps

/-! ## The [256, 128] · [128, 64] product's operand indices -/

theorem d256_l0 (i : S256x64.Idx) (q : dot_S256x128_S128x64_S256x64_1_0_0_1_n_n.contr.Idx) : (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide),
    dif_pos (show (0 : Fin S256x128.rank) ∈ dot_S256x128_S128x64_S256x64_1_0_0_1_n_n.lhsNonContracting by decide)]
  rfl
theorem d256_l1 (i : S256x64.Idx) (q : dot_S256x128_S128x64_S256x64_1_0_0_1_n_n.contr.Idx) : (dot_S256x128_S128x64_S256x64_1_0_0_1_n_n.lhsIdx i q 1).val = (q ⟨0, by decide⟩).val :=
  dot_S256x128_S128x64_S256x64_1_0_0_1_n_n.lhsIdx_val_of_single rfl i q
theorem d256_r0 (i : S256x64.Idx) (q : dot_S256x128_S128x64_S256x64_1_0_0_1_n_n.contr.Idx) : (dot_S256x128_S128x64_S256x64_1_0_0_1_n_n.rhsIdx i q 0).val = (q ⟨0, by decide⟩).val :=
  dot_S256x128_S128x64_S256x64_1_0_0_1_n_n.rhsIdx_val_of_single rfl i q
theorem d256_r1 (i : S256x64.Idx) (q : dot_S256x128_S128x64_S256x64_1_0_0_1_n_n.contr.Idx) : (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide),
    dif_pos (show (1 : Fin S128x64.rank) ∈ dot_S256x128_S128x64_S256x64_1_0_0_1_n_n.rhsNonContracting by decide)]
  rfl

/-- The [256, 128] array times the [128, 64] array into the zero accumulator is their row-by-row product: a change of
    float format is the identity on extended reals. -/
theorem matmul256_eq (x : Mat 256 128) (w : Mat 128 64) :
    matmul (F := Ideal) dot_S256x128_S128x64_S256x64_1_0_0_1_n_n none (truncf .bf16 x bitsLt_bf16_f32)
      (truncf .bf16 w bitsLt_bf16_f32) (constant S256x64 .f32 0x00000000#32) = rowsMul x w := by
  funext j
  obtain ⟨p, q, rfl⟩ : ∃ (p : Fin 256) (q : Fin 64), j = ix2 p q := ⟨j 0, j 1, eq_ix2 j⟩
  exact Cert.PlainMatmul.matmul_zero_ix2_apply dot_S256x128_S128x64_S256x64_1_0_0_1_n_n rfl rfl d256_l0 d256_l1 d256_r0 d256_r1 none _ _ p q

section Region4

variable (V : (c : Dev nD) → (b : Ref sig .tc) → Buf (Elt Ideal) ((c : Thread nD τ).loc b))

/-- The body's stored value: the product of the two loaded arrays plus the bias row. -/
theorem pay4_eq (x0 : Vec Ideal S256x128 .f32) (x1 : Vec Ideal S128x64 .f32) (x2 : Vec Ideal S1x64 .f32) :
    k4_pay1 x0 x1 x2 = addRow (rowsMul x0 x1) x2 := by
  show addf (matmul (F := Ideal) dot_S256x128_S128x64_S256x64_1_0_0_1_n_n none
      (truncf .bf16 (shapeCast S256x128 x0 shapeCasts_S256x128_S256x128) bitsLt_bf16_f32)
      (truncf .bf16 x1 bitsLt_bf16_f32) (constant S256x64 .f32 0x00000000#32))
      (broadcastTo S256x64 (shapeCast S1x64 x2 shapeCasts_S1x64_S1x64) broadcasts_S1x64_S256x64) = _
  rw [blockAddRow_eq, shapeCast_self, matmul256_eq]

/-- The printed index maps at the grid's one point: every window's block is the one at the origin. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the point writes back is the block at the origin of one function of the three arrays as the region finds them. -/
theorem flushed4_eq (c : Dev nD) (t : Fin cfg4.N) :
    (dat4 V c).flushed 3 t
      = ((cfg4.win 3).blk t).view.read (Elt Ideal) (addRow (rowsMul (V c main_v86) (V c main_arg9)) (V c main_v87)) := by
  show (cfg4.win 3).cut (grid4.coords t) ((dat4 V c).after 3 t) = _
  rw [after4_3]
  unfold out4_3
  rw [View.canon_unit_zero origin2]
  simp only [View.ld_unit_zero (S := S256x128) origin2, View.ld_unit_zero (S := S128x64) origin2, View.ld_unit_zero (S := S1x64) origin2]
  rw [pay4_eq]
  obtain ⟨e0, e1, e2, e3, e4, e5, e6, e7⟩ := idx_facts4 t
  funext j
  show addRow (rowsMul (iblk4 V c 0 t) (iblk4 V c 1 t)) (iblk4 V c 2 t) j
    = addRow (rowsMul (V c main_v86) (V c main_arg9)) (V c main_v87) (((cfg4.win 3).blk t).view.emb j)
  have hs : rowsMul (iblk4 V c 0 t) (iblk4 V c 1 t) j = rowsMul (V c main_v86) (V c main_arg9) (((cfg4.win 3).blk t).view.emb j) := by
    unfold rowsMul
    refine Finset.sum_congr rfl fun f _ => ?_
    have ha : iblk4 V c 0 t (lrow j f) = V c main_v86 (lrow (((cfg4.win 3).blk t).view.emb j) f) := by
      show V c main_v86 (((cfg4.win 0).blk t).view.emb (lrow j f)) = _
      refine congrArg (V c main_v86) (funext fun a => Fin.ext ?_)
      match a with
      | ⟨0, _⟩ => show win4_0.index t (0 : Fin 2) * 256 + 1 * (j 0).val = win4_3.index t (0 : Fin 2) * 256 + 1 * (j 0).val; omega
      | ⟨1, _⟩ => show win4_0.index t (1 : Fin 2) * 128 + 1 * f.val = f.val; omega
    have hw : iblk4 V c 1 t (rcol j f) = V c main_arg9 (rcol (((cfg4.win 3).blk t).view.emb j) f) := by
      show V c main_arg9 (((cfg4.win 1).blk t).view.emb (rcol j f)) = _
      refine congrArg (V c main_arg9) (funext fun a => Fin.ext ?_)
      match a with
      | ⟨0, _⟩ => show win4_1.index t (0 : Fin 2) * 128 + 1 * f.val = f.val; omega
      | ⟨1, _⟩ => show win4_1.index t (1 : Fin 2) * 64 + 1 * (j 1).val = win4_3.index t (1 : Fin 2) * 64 + 1 * (j 1).val; omega
    rw [ha, hw]
  have hb : iblk4 V c 2 t (lane j) = V c main_v87 (lane (((cfg4.win 3).blk t).view.emb j)) := by
    show V c main_v87 (((cfg4.win 2).blk t).view.emb (lane j)) = _
    refine congrArg (V c main_v87) (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  simp only [addRow]
  rw [hs, hb]

/-- An index of the output array is in the point's block iff each coordinate is in the block's range on its axis. -/
theorem mem_blk4 (t : Fin cfg4.N) (i : S256x64.Idx) :
    i ∈ ((cfg4.win 3).blk t).view.set ↔ ∀ a : Fin 2, win4_3.index t a * S256x64.size a ≤ (i a).val ∧ (i a).val < win4_3.index t a * S256x64.size a + S256x64.size a := by
  show i ∈ ((View.whole main_v88).slice (win4_3.rect t)).set ↔ _
  rw [View.set_slice_whole, Rect.mem_set_unit]
  exact Iff.rfl

/-- The one block is the whole output array. -/
theorem covered4 (i : S256x64.Idx) :
    ∃ t : Fin cfg4.N, (cfg4.win 3).flush t = true ∧ i ∈ ((cfg4.win 3).blk t).view.set := by
  have hi0 : (i 0).val < 256 := (i 0).isLt
  have hi1 : (i 1).val < 64 := (i 1).isLt
  obtain ⟨e0, e1, e2, e3, e4, e5, e6, e7⟩ := idx_facts4 t4_0
  refine ⟨t4_0, flush4_3 t4_0, ?_⟩
  rw [mem_blk4]
  intro a
  match a with
  | ⟨0, _⟩ => show win4_3.index t4_0 (0 : Fin 2) * 256 ≤ (i 0).val ∧ (i 0).val < win4_3.index t4_0 (0 : Fin 2) * 256 + 256; omega
  | ⟨1, _⟩ => show win4_3.index t4_0 (1 : Fin 2) * 64 ≤ (i 1).val ∧ (i 1).val < win4_3.index t4_0 (1 : Fin 2) * 64 + 64; omega

/-- After region 4 its output array is one function of the three arrays it was entered with. -/
theorem final4 (c : Dev nD) :
    (dat4 V c).arrAt 3 cfg4.N = addRow (rowsMul (V c main_v86) (V c main_arg9)) (V c main_v87) :=
  (dat4 V c).arrAt_eq_of_cover 3 _ (fun t _ => flushed4_eq V c t) covered4

end Region4

end Cert.KernelIdeal.Rows

end
-- ==== Proof.Boundary2.lean ====
/-
  The boundary fold, second part: from region 1 to the result. Layers 2 and 3 repeat the pattern (a region computes
  relu (aggregate + bias) · weights as one function of its three arrays; a host stretch aggregates it over the edges),
  region 3 applies the last bias and clamp, the last stretch pools the node features per graph, and region 4 multiplies
  by the readout weights and adds the readout bias. At every boundary the buffer the next stage reads holds the
  reference's own stage of the launched arguments, so the result array ends at the reference's result term.
-/
import proofs.«119889_j31756988187185_1_alg».proof.Proof.Boundary1
import proofs.«119889_j31756988187185_1_alg».proof.Proof.Region1
import proofs.«119889_j31756988187185_1_alg».proof.Proof.Region2
import proofs.«119889_j31756988187185_1_alg».proof.Proof.Region3
import proofs.«119889_j31756988187185_1_alg».proof.Proof.Region4

set_option maxRecDepth 16384

noncomputable section

namespace Cert.KernelIdeal.Folded

open Idealize.ShloMosaic Idealize.ShloMosaic.TcCoe Idealize.SL.Sem
open Cert.KernelIdeal Cert.KernelIdeal.Gen Cert.RowOps
open Cert.ReferenceIdeal.Read

variable (m : (ℓ : Loc nD τ sig) → Buf (Elt Ideal) ℓ) (ρ : Dev nD → PrngReg) (c : Dev nD)

/-! ## After region 1: the second transform -/

/-- After region 1: its output is the reference's next transform. -/
theorem W4_v44 : W4 m ρ c (Proc.devRef .tc main_v44) = val_main_v47 (F := Ideal) (a0 m c) (a1 m c) (a3 m c) (a4 m c) (a5 m c) := by
  refine (W4_arr m ρ c 3).trans ?_
  rw [Rows.final1 (V3 m ρ) c]
  show rowsMul (biasRelu (W3 m ρ c (Proc.devRef .tc main_v42)) (W3 m ρ c (Proc.devRef .tc main_v43))) (W3 m ρ c (Proc.devRef .tc main_arg5)) = _
  rw [W3_v42 m ρ c, W3_v43 m ρ c, W3_arg5 m ρ c]
  exact (Cert.ReferenceIdeal.Stages.v47_eq (a0 m c) (a1 m c) (a3 m c) (a4 m c) (a5 m c) shapeCasts_S128_S1x128).symm
theorem W4_v3 : W4 m ρ c (Proc.devRef .tc main_v3) = val_main_v3 (F := Ideal) (a1 m c) :=
  (W4_of_ne m ρ c main_v3 (by decide)).trans (W3_v3 m ρ c)
theorem W4_v6 : W4 m ρ c (Proc.devRef .tc main_v6) = val_main_v6 (F := Ideal) (a1 m c) :=
  (W4_of_ne m ρ c main_v6 (by decide)).trans (W3_v6 m ρ c)
theorem W4_v28 : W4 m ρ c (Proc.devRef .tc main_v28) = val_main_v28 (F := Ideal) (a1 m c) :=
  (W4_of_ne m ρ c main_v28 (by decide)).trans (W3_v28 m ρ c)
theorem W4_arg2 : W4 m ρ c (Proc.devRef .tc main_arg2) = a2 m c :=
  (W4_of_ne m ρ c main_arg2 (by decide)).trans (W3_arg2 m ρ c)
theorem W4_arg6 : W4 m ρ c (Proc.devRef .tc main_arg6) = a6 m c :=
  (W4_of_ne m ρ c main_arg6 (by decide)).trans (W3_arg6 m ρ c)
theorem W4_arg7 : W4 m ρ c (Proc.devRef .tc main_arg7) = a7 m c :=
  (W4_of_ne m ρ c main_arg7 (by decide)).trans (W3_arg7 m ρ c)
theorem W4_arg8 : W4 m ρ c (Proc.devRef .tc main_arg8) = a8 m c :=
  (W4_of_ne m ρ c main_arg8 (by decide)).trans (W3_arg8 m ρ c)
theorem W4_arg9 : W4 m ρ c (Proc.devRef .tc main_arg9) = a9 m c :=
  (W4_of_ne m ρ c main_arg9 (by decide)).trans (W3_arg9 m ρ c)
theorem W4_arg10 : W4 m ρ c (Proc.devRef .tc main_arg10) = a10 m c :=
  (W4_of_ne m ρ c main_arg10 (by decide)).trans (W3_arg10 m ρ c)

/-! ## After the third stretch: the second aggregation and the second bias row -/

/-- After the stretch: the aggregation of the previous transform over the edges. The gathered rows times the edge
    weights and the edge weights times the gathered rows are the same products. -/
theorem W5_v57 : W5 m ρ c (Proc.devRef .tc main_v57) = val_main_v60 (F := Ideal) (a0 m c) (a1 m c) (a3 m c) (a4 m c) (a5 m c) := by
  show StableHlo.after hostOps2 (W4 m ρ c) (Proc.devRef .tc main_v57) = _
  after_results_simp
  rw [W4_v44 m ρ c, W4_v3 m ρ c, W4_v6 m ρ c, W4_v28 m ρ c, mulf_comm]
  rfl
/-- After the stretch: the layer's bias vector held as one row. -/
theorem W5_v58 : W5 m ρ c (Proc.devRef .tc main_v58) = shapeCast S1x128 (a6 m c) shapeCasts_S128_S1x128 := by
  show StableHlo.after hostOps2 (W4 m ρ c) (Proc.devRef .tc main_v58) = _
  after_results_simp
  rw [W4_arg6 m ρ c]
  rfl
theorem W5_v3 : W5 m ρ c (Proc.devRef .tc main_v3) = val_main_v3 (F := Ideal) (a1 m c) := by
  show StableHlo.after hostOps2 (W4 m ρ c) (Proc.devRef .tc main_v3) = _
  after_results_simp
  exact W4_v3 m ρ c
theorem W5_v6 : W5 m ρ c (Proc.devRef .tc main_v6) = val_main_v6 (F := Ideal) (a1 m c) := by
  show StableHlo.after hostOps2 (W4 m ρ c) (Proc.devRef .tc main_v6) = _
  after_results_simp
  exact W4_v6 m ρ c
theorem W5_v28 : W5 m ρ c (Proc.devRef .tc main_v28) = val_main_v28 (F := Ideal) (a1 m c) := by
  show StableHlo.after hostOps2 (W4 m ρ c) (Proc.devRef .tc main_v28) = _
  after_results_simp
  exact W4_v28 m ρ c
theorem W5_arg2 : W5 m ρ c (Proc.devRef .tc main_arg2) = a2 m c := by
  show StableHlo.after hostOps2 (W4 m ρ c) (Proc.devRef .tc main_arg2) = _
  after_results_simp
  exact W4_arg2 m ρ c
theorem W5_arg7 : W5 m ρ c (Proc.devRef .tc main_arg7) = a7 m c := by
  show StableHlo.after hostOps2 (W4 m ρ c) (Proc.devRef .tc main_arg7) = _
  after_results_simp
  exact W4_arg7 m ρ c
theorem W5_arg8 : W5 m ρ c (Proc.devRef .tc main_arg8) = a8 m c := by
  show StableHlo.after hostOps2 (W4 m ρ c) (Proc.devRef .tc main_arg8) = _
  after_results_simp
  exact W4_arg8 m ρ c
theorem W5_arg9 : W5 m ρ c (Proc.devRef .tc main_arg9) = a9 m c := by
  show StableHlo.after hostOps2 (W4 m ρ c) (Proc.devRef .tc main_arg9) = _
  after_results_simp
  exact W4_arg9 m ρ c
theorem W5_arg10 : W5 m ρ c (Proc.devRef .tc main_arg10) = a10 m c := by
  show StableHlo.after hostOps2 (W4 m ρ c) (Proc.devRef .tc main_arg10) = _
  after_results_simp
  exact W4_arg10 m ρ c

/-! ## After region 2: the third transform -/

/-- After region 2: its output is the reference's next transform. -/
theorem W6_v59 : W6 m ρ c (Proc.devRef .tc main_v59) = val_main_v65 (F := Ideal) (a0 m c) (a1 m c) (a3 m c) (a4 m c) (a5 m c) (a6 m c) (a7 m c) := by
  refine (W6_arr m ρ c 3).trans ?_
  rw [Rows.final2 (V5 m ρ) c]
  show rowsMul (biasRelu (W5 m ρ c (Proc.devRef .tc main_v57)) (W5 m ρ c (Proc.devRef .tc main_v58))) (W5 m ρ c (Proc.devRef .tc main_arg7)) = _
  rw [W5_v57 m ρ c, W5_v58 m ρ c, W5_arg7 m ρ c]
  exact (Cert.ReferenceIdeal.Stages.v65_eq (a0 m c) (a1 m c) (a3 m c) (a4 m c) (a5 m c) (a6 m c) (a7 m c) shapeCasts_S128_S1x128).symm
theorem W6_v3 : W6 m ρ c (Proc.devRef .tc main_v3) = val_main_v3 (F := Ideal) (a1 m c) :=
  (W6_of_ne m ρ c main_v3 (by decide)).trans (W5_v3 m ρ c)
theorem W6_v6 : W6 m ρ c (Proc.devRef .tc main_v6) = val_main_v6 (F := Ideal) (a1 m c) :=
  (W6_of_ne m ρ c main_v6 (by decide)).trans (W5_v6 m ρ c)
theorem W6_v28 : W6 m ρ c (Proc.devRef .tc main_v28) = val_main_v28 (F := Ideal) (a1 m c) :=
  (W6_of_ne m ρ c main_v28 (by decide)).trans (W5_v28 m ρ c)
theorem W6_arg2 : W6 m ρ c (Proc.devRef .tc main_arg2) = a2 m c :=
  (W6_of_ne m ρ c main_arg2 (by decide)).trans (W5_arg2 m ρ c)
theorem W6_arg8 : W6 m ρ c (Proc.devRef .tc main_arg8) = a8 m c :=
  (W6_of_ne m ρ c main_arg8 (by decide)).trans (W5_arg8 m ρ c)
theorem W6_arg9 : W6 m ρ c (Proc.devRef .tc main_arg9) = a9 m c :=
  (W6_of_ne m ρ c main_arg9 (by decide)).trans (W5_arg9 m ρ c)
theorem W6_arg10 : W6 m ρ c (Proc.devRef .tc main_arg10) = a10 m c :=
  (W6_of_ne m ρ c main_arg10 (by decide)).trans (W5_arg10 m ρ c)

/-! ## After the fourth stretch: the third aggregation and the third bias row -/

/-- After the stretch: the aggregation of the previous transform over the edges. The gathered rows times the edge
    weights and the edge weights times the gathered rows are the same products. -/
theorem W7_v72 : W7 m ρ c (Proc.devRef .tc main_v72) = val_main_v78 (F := Ideal) (a0 m c) (a1 m c) (a3 m c) (a4 m c) (a5 m c) (a6 m c) (a7 m c) := by
  show StableHlo.after hostOps3 (W6 m ρ c) (Proc.devRef .tc main_v72) = _
  after_results_simp
  rw [W6_v59 m ρ c, W6_v3 m ρ c, W6_v6 m ρ c, W6_v28 m ρ c, mulf_comm]
  rfl
/-- After the stretch: the layer's bias vector held as one row. -/
theorem W7_v73 : W7 m ρ c (Proc.devRef .tc main_v73) = shapeCast S1x128 (a8 m c) shapeCasts_S128_S1x128 := by
  show StableHlo.after hostOps3 (W6 m ρ c) (Proc.devRef .tc main_v73) = _
  after_results_simp
  rw [W6_arg8 m ρ c]
  rfl
theorem W7_arg2 : W7 m ρ c (Proc.devRef .tc main_arg2) = a2 m c := by
  show StableHlo.after hostOps3 (W6 m ρ c) (Proc.devRef .tc main_arg2) = _
  after_results_simp
  exact W6_arg2 m ρ c
theorem W7_arg9 : W7 m ρ c (Proc.devRef .tc main_arg9) = a9 m c := by
  show StableHlo.after hostOps3 (W6 m ρ c) (Proc.devRef .tc main_arg9) = _
  after_results_simp
  exact W6_arg9 m ρ c
theorem W7_arg10 : W7 m ρ c (Proc.devRef .tc main_arg10) = a10 m c := by
  show StableHlo.after hostOps3 (W6 m ρ c) (Proc.devRef .tc main_arg10) = _
  after_results_simp
  exact W6_arg10 m ρ c

/-! ## After region 3: the node features -/

/-- After region 3: its output is the reference's last layer of node features. -/
theorem W8_v74 : W8 m ρ c (Proc.devRef .tc main_v74) = val_main_v82 (F := Ideal) (a0 m c) (a1 m c) (a3 m c) (a4 m c) (a5 m c) (a6 m c) (a7 m c) (a8 m c) := by
  refine (W8_arr m ρ c 2).trans ?_
  rw [Rows.final3 (V7 m ρ) c]
  show biasRelu (W7 m ρ c (Proc.devRef .tc main_v72)) (W7 m ρ c (Proc.devRef .tc main_v73)) = _
  rw [W7_v72 m ρ c, W7_v73 m ρ c]
  exact (Cert.ReferenceIdeal.Stages.v82_eq (a0 m c) (a1 m c) (a3 m c) (a4 m c) (a5 m c) (a6 m c) (a7 m c) (a8 m c) shapeCasts_S128_S1x128).symm
theorem W8_arg2 : W8 m ρ c (Proc.devRef .tc main_arg2) = a2 m c :=
  (W8_of_ne m ρ c main_arg2 (by decide)).trans (W7_arg2 m ρ c)
theorem W8_arg9 : W8 m ρ c (Proc.devRef .tc main_arg9) = a9 m c :=
  (W8_of_ne m ρ c main_arg9 (by decide)).trans (W7_arg9 m ρ c)
theorem W8_arg10 : W8 m ρ c (Proc.devRef .tc main_arg10) = a10 m c :=
  (W8_of_ne m ρ c main_arg10 (by decide)).trans (W7_arg10 m ρ c)

/-! ## After the last stretch: the pooled features and the readout bias row -/

/-- After the last stretch: the per-graph mean of the node features, from the same host operations in both programs. -/
theorem W9_v86 : W9 m ρ c (Proc.devRef .tc main_v86) = val_main_v94 (F := Ideal) (a0 m c) (a1 m c) (a2 m c) (a3 m c) (a4 m c) (a5 m c) (a6 m c) (a7 m c) (a8 m c) := by
  show StableHlo.after hostOps4 (W8 m ρ c) (Proc.devRef .tc main_v86) = _
  after_results_simp
  rw [W8_v74 m ρ c, W8_arg2 m ρ c]
  rfl
/-- After the last stretch: the readout bias vector held as one row. -/
theorem W9_v87 : W9 m ρ c (Proc.devRef .tc main_v87) = shapeCast S1x64 (a10 m c) shapeCasts_S64_S1x64 := by
  show StableHlo.after hostOps4 (W8 m ρ c) (Proc.devRef .tc main_v87) = _
  after_results_simp
  rw [W8_arg10 m ρ c]
  rfl
theorem W9_arg9 : W9 m ρ c (Proc.devRef .tc main_arg9) = a9 m c := by
  show StableHlo.after hostOps4 (W8 m ρ c) (Proc.devRef .tc main_arg9) = _
  after_results_simp
  exact W8_arg9 m ρ c

/-! ## After region 4: the result -/

/-- After region 4 the result array holds the reference's result term of the launched arguments. -/
theorem W10_v88 : W10 m ρ c (Proc.devRef .tc main_v88) = val_main_v98 (F := Ideal) (a0 m c) (a1 m c) (a2 m c) (a3 m c) (a4 m c) (a5 m c) (a6 m c) (a7 m c) (a8 m c) (a9 m c) (a10 m c) := by
  refine (W10_arr m ρ c 3).trans ?_
  rw [Rows.final4 (V9 m ρ) c]
  show addRow (rowsMul (W9 m ρ c (Proc.devRef .tc main_v86)) (W9 m ρ c (Proc.devRef .tc main_arg9))) (W9 m ρ c (Proc.devRef .tc main_v87)) = _
  rw [W9_v86 m ρ c, W9_arg9 m ρ c, W9_v87 m ρ c]
  exact (Cert.ReferenceIdeal.Stages.v98_eq (a0 m c) (a1 m c) (a2 m c) (a3 m c) (a4 m c) (a5 m c) (a6 m c) (a7 m c) (a8 m c) (a9 m c) (a10 m c) shapeCasts_S64_S1x64).symm

end Cert.KernelIdeal.Folded

end
-- ==== Proof.lean ====
/-
  A three-layer graph convolution with mean pooling and a linear readout, 100000 nodes with 128 features, 1.6 million
  edges plus a self-loop per node, 256 graphs, 64 outputs. Both programs compute, from the same host operations, the
  source and target index vectors, the degree of every node and the edge weights rsqrt (max deg 1) at the source times
  the same at the target; then, three times, a dense transform h · W, an aggregation over the edges (gather the
  transformed rows at the sources, weight them, scatter-add them at the targets), the layer's bias and a clamp at zero;
  then the per-graph mean of the node features, and pooled · W_out + b_out.

  The reference does every dense step on the host. The kernel does them in five pallas regions: region 0 is x · W1 in
  twenty blocks of 5000 rows; regions 1 and 2 are relu (agg + b) · W, the previous layer's bias and clamp fused with the
  next layer's transform, again in twenty row blocks; region 3 is relu (agg + b); region 4 is pooled · W_out + b_out in
  one block. The gathers, scatters and the pooling stay on the host, as the same operations on the same index vectors.

  Over the extended reals the two are one function of the arguments. A change of float format is the identity; a
  matrix product into a zero accumulator and the host's dot_general are both the sum over the contracted axis of the
  products, whatever the blocking of the rows and the order of the additions; a bias given as one row and repeated down
  a block is the bias vector repeated down the array; and the one place the two spell an operation differently, the
  gathered rows times the edge weights against the edge weights times the gathered rows, is the commutativity of the
  product, which holds at the infinities too. No step cancels, distributes or divides by an input, so no entry needs to
  be finite and the precondition is never opened. The idealization rewrote no operation of the kernel, so the kernel
  and its idealization are one text read at two instances.
-/
import proofs.«119889_j31756988187185_1_alg».proof.Defs
import proofs.«119889_j31756988187185_1_alg».proof.Proof.Gen.Kernel
import proofs.«119889_j31756988187185_1_alg».proof.Proof.Gen.Kernel.Frame
import proofs.«119889_j31756988187185_1_alg».proof.Proof.Gen.KernelIdeal
import proofs.«119889_j31756988187185_1_alg».proof.Proof.Gen.KernelIdeal.Frame
import proofs.«119889_j31756988187185_1_alg».proof.Proof.Gen.ReferenceIdeal
import proofs.«119889_j31756988187185_1_alg».proof.Proof.Gen.ReferenceIdeal.Run
import proofs.«119889_j31756988187185_1_alg».proof.Proof.Gen.ReferenceIdeal.Read
import proofs.«119889_j31756988187185_1_alg».proof.Proof.Gen.Pre_finite_inputs
import proofs.«119889_j31756988187185_1_alg».proof.Proof.KernelRun
import proofs.«119889_j31756988187185_1_alg».proof.Proof.Boundary2
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_k : Cert.frame_Kernel := fun m ρ _ => Cert.Kernel.Gen.frame m ρ
/-- The idealized kernel runs and leaves its arguments as launched. -/
theorem frame_ki : Cert.frame_KernelIdeal := fun m ρ _ => Cert.KernelIdeal.Gen.frame m ρ
/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the result array at the reference's
    result term of the launched arguments: the kernel by following its buffers from boundary to boundary, the
    reference by its own run. -/
theorem algebraic : Cert.algebraic_KernelIdeal_ReferenceIdeal := by
  intro m ρ m' ρ' _ hagree
  refine ⟨fun c => Cert.ReferenceIdeal.Read.val_main_v98 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Folded.W10_v88 m ρ c), (h c).2⟩)
      (Cert.KernelIdeal.Folded.run_folded m ρ)
  · refine (θ_run Cert.ReferenceIdeal.defs _ _).mono
      (fun r h c => ⟨(h c).1.trans ((Cert.ReferenceIdeal.Read.val_main_v98_eq m' c).trans ?_), (h c).2⟩)
      (Cert.ReferenceIdeal.Value.run (F := Ideal) m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
